-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x16 : Shape := ⟨2, ![500000, 16]⟩
abbrev S2x500000 : Shape := ⟨2, ![2, 500000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S128x16 : S_.BroadcastsInDim S128x16 (![] : Fin 0 → Fin S128x16.rank)
  reducesTo_S128x16_S_d0_1 : S128x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S12x128 : S_.BroadcastsInDim S12x128 (![] : Fin 0 → Fin S12x128.rank)
  reducesTo_S12x128_S_d0_1 : S12x128.ReducesTo [0, 1] S_

variable [Facts]

def fn_part1 {F : FTy → Type} [FloatOps F] (main_arg5 : FVec F S3x128 .f32) (main_arg6 : FVec F S12x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S12x128 .f32 := Host.absf main_arg6
  let main_cst_8 : FVec F S_ .f32 := constant S_ .f32 0x7F800000#32
  let main_v25 : FVec F S12x128 .f32 := broadcastInDim S12x128 ![] bcast_S_S12x128 main_cst_8
  let main_v26 : IVec S12x128 1 := cmpf .olt main_v24 main_v25
  let main_c_9 : IVec S_ 1 := constantI S_ 1 1#1
  let main_v27 : IVec S_ 1 := (fun x v => Host.reduce IntOp.andi x v reducesTo_S12x128_S_d0_1 h_S_) main_v26 main_c_9
  let main_v28 : IVec S_ 1 := andi main_v23 main_v27
  main_v28

def fn {F : FTy → Type} [FloatOps F] (main_arg0 : FVec F S500000x128 .f32) (main_arg1 : FVec F S500000x16 .f32) (main_arg2 : IVec S2x500000 32) (main_arg3 : FVec F S128x16 .f32) (main_arg4 : FVec F S3x128x128 .f32) (main_arg5 : FVec F S3x128 .f32) (main_arg6 : FVec F S12x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S500000x128 : Shape := ⟨2, ![500000, 128]⟩
abbrev S500000x16 : Shape := ⟨2, ![500000, 16]⟩
abbrev S2x500000 : Shape := ⟨2, ![2, 500000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S16x128 : Shape := ⟨2, ![16, 128]⟩
abbrev S10000x16 : Shape := ⟨2, ![10000, 16]⟩
abbrev S10000x128 : Shape := ⟨2, ![10000, 128]⟩
abbrev S1x500000 : Shape := ⟨2, ![1, 500000]⟩
abbrev S500000 : Shape := ⟨1, ![500000]⟩
abbrev S_ : Shape := ⟨0, ![]⟩
abbrev S50000x128 : Shape := ⟨2, ![50000, 128]⟩
abbrev S500000x1 : Shape := ⟨2, ![500000, 1]⟩
abbrev S3x1x128 : Shape := ⟨3, ![3, 1, 128]⟩
abbrev S128x128 : Shape := ⟨2, ![128, 128]⟩
abbrev S1 : Shape := ⟨1, ![1]⟩
abbrev S5000x128 : Shape := ⟨2, ![5000, 128]⟩
abbrev S1x128x128 : Shape := ⟨3, ![1, 128, 128]⟩
abbrev S1x1x128 : Shape := ⟨3, ![1, 1, 128]⟩
abbrev S1x128 : Shape := ⟨2, ![1, 128]⟩
abbrev S50000x12 : Shape := ⟨2, ![50000, 12]⟩

abbrev nBuf : Space → Nat
  | .hbm => 25
  | .vmem => 14
  | .smem => 0
  | _ => 0

abbrev bufTy : (tb : Table) → Fin (tcTables nBuf tb) → BufTy
  | .hbm, ⟨0, _⟩ => ⟨S500000x128, .f32⟩
  | .hbm, ⟨1, _⟩ => ⟨S500000x16, .f32⟩
  | .hbm, ⟨2, _⟩ => ⟨S2x500000, .i32⟩
  | .hbm, ⟨3, _⟩ => ⟨S128x16, .f32⟩
  | .hbm, ⟨4, _⟩ => ⟨S3x128x128, .f32⟩
  | .hbm, ⟨5, _⟩ => ⟨S3x128, .f32⟩
  | .hbm, ⟨6, _⟩ => ⟨S12x128, .f32⟩
  | .hbm, ⟨7, _⟩ => ⟨S16x128, .f32⟩
  | .hbm, ⟨8, _⟩ => ⟨S500000x128, .f32⟩
  | .hbm, ⟨9, _⟩ => ⟨S1x500000, .i32⟩
  | .hbm, ⟨10, _⟩ => ⟨S500000, .i32⟩
  | .hbm, ⟨11, _⟩ => ⟨S_, .f32⟩
  | .hbm, ⟨12, _⟩ => ⟨S50000x128, .f32⟩
  | .hbm, ⟨13, _⟩ => ⟨S500000x1, .i32⟩
  | .hbm, ⟨14, _⟩ => ⟨S50000x128, .f32⟩
  | .hbm, ⟨15, _⟩ => ⟨S3x128x128, .f32⟩
  | .hbm, ⟨16, _⟩ => ⟨S3x1x128, .f32⟩
  | .hbm, ⟨17, _⟩ => ⟨S_, .f32⟩
  | .hbm, ⟨18, _⟩ => ⟨S128x128, .f32⟩
  | .hbm, ⟨19, _⟩ => ⟨S_, .i32⟩
  | .hbm, ⟨20, _⟩ => ⟨S1, .i32⟩
  | .hbm, ⟨21, _⟩ => ⟨S128x128, .f32⟩
  | .hbm, ⟨22, _⟩ => ⟨S128x128, .f32⟩
  | .hbm, ⟨23, _⟩ => ⟨S50000x128, .f32⟩
  | .hbm, ⟨24, _⟩ => ⟨S50000x12, .f32⟩
  | .local _ .vmem, ⟨0, _⟩ => ⟨S10000x16, .f32⟩
  | .local _ .vmem, ⟨1, _⟩ => ⟨S10000x16, .f32⟩
  | .local _ .vmem, ⟨2, _⟩ => ⟨S10000x128, .f32⟩
  | .local _ .vmem, ⟨3, _⟩ => ⟨S10000x128, .f32⟩
  | .local _ .vmem, ⟨4, _⟩ => ⟨S16x128, .f32⟩
  | .local _ .vmem, ⟨5, _⟩ => ⟨S10000x128, .f32⟩
  | .local _ .vmem, ⟨6, _⟩ => ⟨S10000x128, .f32⟩
  | .local _ .vmem, ⟨7, _⟩ => ⟨S5000x128, .f32⟩
  | .local _ .vmem, ⟨8, _⟩ => ⟨S5000x128, .f32⟩
  | .local _ .vmem, ⟨9, _⟩ => ⟨S3x128x128, .f32⟩
  | .local _ .vmem, ⟨10, _⟩ => ⟨S3x1x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x16_S16x128_1_0 : S128x16.Transposes [1, 0] S16x128
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S10000x128_S10000x128_0_0 : ∀ a, (![0, 0] : Fin 2 → Nat) a + S10000x128.size a ≤ S10000x128.size a
  h_S10000x128 : 0 < S10000x128.numel
  slices_S2x500000_S1x500000_1_0 : S2x500000.Slices ![1, 0] S1x500000
  shapeCasts_S1x500000_S500000 : S1x500000.ShapeCasts S500000
  bcast_S_S50000x128 : S_.BroadcastsInDim S50000x128 (![] : Fin 0 → Fin S50000x128.rank)
  bcast_S500000_S500000x1_0 : S500000.BroadcastsInDim S500000x1 (![0] : Fin 1 → Fin S500000x1.rank)
  transposes_S3x128x128_S3x128x128_0_2_1 : S3x128x128.Transposes [0, 2, 1] S3x128x128
  shapeCasts_S3x128_S3x1x128 : S3x128.ShapeCasts S3x1x128
  bcast_S_S128x128 : S_.BroadcastsInDim S128x128 (![] : Fin 0 → Fin S128x128.rank)
  bcast_S_S1 : S_.BroadcastsInDim S1 (![] : Fin 0 → Fin S1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x1x128_S1x1x128_0_0_0 : ∀ a, (![0, 0, 0] : Fin 3 → Nat) a + S1x1x128.size a ≤ S3x1x128.size a
  h_S1x1x128 : 0 < S1x1x128.numel
  shapeCasts_S1x1x128_S1x128 : S1x1x128.ShapeCasts S1x128
  broadcasts_S1x128_S5000x128 : S1x128.Broadcasts S5000x128
  inb_S3x128x128_S1x128x128_1_0_0 : ∀ a, (![1, 0, 0] : Fin 3 → Nat) a + S1x128x128.size a ≤ S3x128x128.size a
  inb_S3x1x128_S1x1x128_1_0_0 : ∀ a, (![1, 0, 0] : Fin 3 → Nat) a + S1x1x128.size a ≤ S3x1x128.size a
  inb_S3x128x128_S1x128x128_2_0_0 : ∀ a, (![2, 0, 0] : Fin 3 → Nat) a + S1x128x128.size a ≤ S3x128x128.size a
  inb_S3x1x128_S1x1x128_2_0_0 : ∀ a, (![2, 0, 0] : Fin 3 → Nat) a + S1x1x128.size a ≤ S3x1x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x12_0_0 : S50000x128.Slices ![0, 0] S50000x12
  dot_S10000x16_S16x128_S10000x128_1_0_0_1_n_n_wf : DotDims.WF S10000x16 S16x128 S10000x128 [1] [0] [0] [1] [] []
  scatter_S50000x128_S500000x1_S500000x128_1_0_0_1_wf : ScatterDims.WF S50000x128 S500000x1 S500000x128 [1] [0] [0] 1
  scatter_S128x128_S1_S12x128_01_n_0_0_wf : ScatterDims.WF S128x128 S1 S12x128 [0, 1] [] [0] 0
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S500000x16.size a
  hwx0_0 : ∀ i : grid0.Coords, EltTy.bits .f32 = 32 ∨ (Rect.block (s := S500000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x128.size a ≤ S3x128x128.size a
  hwx1_1 : ∀ i : grid1.Coords, EltTy.bits .f32 = 32 ∨ (Rect.block (s := S3x128x128) S3x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x1x128.size a ≤ S3x1x128.size a
  hwx1_2 : ∀ i : grid1.Coords, EltTy.bits .f32 = 32 ∨ (Rect.block (s := S3x1x128) S3x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S128x128_S1_S12x128_01_n_0_0 : ScatterDims S128x128 S1 S12x128 where
  updateWindowDims := [0, 1]
  insertedWindowDims := []
  scatterDimsToOperandDims := [0]
  indexVectorDim := 0
  wf := scatter_S128x128_S1_S12x128_01_n_0_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S3x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S3x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000x16 : Shape := ⟨2, ![500000, 16]⟩
abbrev S2x500000 : Shape := ⟨2, ![2, 500000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S1x500000 : Shape := ⟨2, ![1, 500000]⟩
abbrev S500000 : Shape := ⟨1, ![500000]⟩
abbrev S_ : Shape := ⟨0, ![]⟩
abbrev S50000x128 : Shape := ⟨2, ![50000, 128]⟩
abbrev S500000x1 : Shape := ⟨2, ![500000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x12 : Shape := ⟨2, ![50000, 12]⟩

abbrev nBuf : Space → Nat
  | .hbm => 91
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x16, .f32⟩
  | .hbm, ⟨2, _⟩ => ⟨S2x500000, .i32⟩
  | .hbm, ⟨3, _⟩ => ⟨S128x16, .f32⟩
  | .hbm, ⟨4, _⟩ => ⟨S3x128x128, .f32⟩
  | .hbm, ⟨5, _⟩ => ⟨S3x128, .f32⟩
  | .hbm, ⟨6, _⟩ => ⟨S12x128, .f32⟩
  | .hbm, ⟨7, _⟩ => ⟨S500000x128, .f32⟩
  | .hbm, ⟨8, _⟩ => ⟨S500000x128, .f32⟩
  | .hbm, ⟨9, _⟩ => ⟨S1x500000, .i32⟩
  | .hbm, ⟨10, _⟩ => ⟨S500000, .i32⟩
  | .hbm, ⟨11, _⟩ => ⟨S_, .f32⟩
  | .hbm, ⟨12, _⟩ => ⟨S50000x128, .f32⟩
  | .hbm, ⟨13, _⟩ => ⟨S500000x1, .i32⟩
  | .hbm, ⟨14, _⟩ => ⟨S50000x128, .f32⟩
  | .hbm, ⟨15, _⟩ => ⟨S1x128x128, .f32⟩
  | .hbm, ⟨16, _⟩ => ⟨S128x128, .f32⟩
  | .hbm, ⟨17, _⟩ => ⟨S50000x128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .i1⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S1x128x128, .f32⟩
  | .hbm, ⟨41, _⟩ => ⟨S128x128, .f32⟩
  | .hbm, ⟨42, _⟩ => ⟨S50000x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .i1⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S1x128x128, .f32⟩
  | .hbm, ⟨66, _⟩ => ⟨S128x128, .f32⟩
  | .hbm, ⟨67, _⟩ => ⟨S50000x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .i1⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x12, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v26 : Ref sig .tc := ⟨.hbm, 61, rfl⟩
abbrev main_cst_1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_v37 : Ref sig .tc := ⟨.hbm, 86, rfl⟩
abbrev main_cst_2 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩

abbrev nD : Nat := 1
abbrev τ : Topo := Topo.v7x

variable {F : FTy → Type} [FloatOps F]

class Facts₀ : Prop where
  slices_S2x500000_S1x500000_1_0 : S2x500000.Slices ![1, 0] S1x500000
  shapeCasts_S1x500000_S500000 : S1x500000.ShapeCasts S500000
  bcast_S_S50000x128 : S_.BroadcastsInDim S50000x128 (![] : Fin 0 → Fin S50000x128.rank)
  bcast_S500000_S500000x1_0 : S500000.BroadcastsInDim S500000x1 (![0] : Fin 1 → Fin S500000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S500000x16_S128x16_S500000x128_1_1_0_0_n_n_wf : DotDims.WF S500000x16 S128x16 S500000x128 [1] [1] [0] [0] [] []
  scatter_S50000x128_S500000x1_S500000x128_1_0_0_1_wf : ScatterDims.WF S50000x128 S500000x1 S500000x128 [1] [0] [0] 1
  dot_S50000x128_S128x128_S50000x128_1_1_0_0_n_n_wf : DotDims.WF S50000x128 S128x128 S50000x128 [1] [1] [0] [0] [] []
  dot_S50000x128_S12x128_S50000x12_1_1_0_0_n_n_wf : DotDims.WF S50000x128 S12x128 S50000x12 [1] [1] [0] [0] [] []

variable [Facts₀]

def dot_S500000x16_S128x16_S500000x128_1_1_0_0_n_n : DotDims S500000x16 S128x16 S500000x128 where
  lhsContracting := [1]
  rhsContracting := [1]
  lhsNonContracting := [0]
  rhsNonContracting := [0]
  lhsBatch := []
  rhsBatch := []
  wf := dot_S500000x16_S128x16_S500000x128_1_1_0_0_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def dot_S50000x128_S12x128_S50000x12_1_1_0_0_n_n : DotDims S50000x128 S12x128 S50000x12 where
  lhsContracting := [1]
  rhsContracting := [1]
  lhsNonContracting := [0]
  rhsNonContracting := [0]
  lhsBatch := []
  rhsBatch := []
  wf := dot_S50000x128_S12x128_S50000x12_1_1_0_0_n_n_wf

class Facts : Prop extends Facts₀ where

variable [Facts]
-- ==== Proof.Softplus.lean ====
/-
  The shifted softplus, x ↦ max x 0 + log (1 + e^(−|x − 0|)) − log 2 (the last term a float literal), on the extended
  reals, in the two spellings the two programs use, read at an element.

  The one written in the kernel forms the exponent as 0 − |x − 0|; the one written in the reference negates |x − 0|. Both
  guard the formula by a test "x − 0 ≠ x − 0" (a not-a-number test; on the extended reals nothing differs from
  itself, and the two comparison predicates, ordered and unordered, are the same function). The two spellings are
  therefore the same function of x: the literal zero denotes the real 0, and 0 − a = −a for every extended real a.
-/
import Idealize.ShloMosaic.PureOps.Ideal
import Idealize.ShloMosaic.PureOps.Ideal.Laws
import Idealize.ShloMosaic.Lib.ValueIdx

noncomputable section

namespace Cert.Softplus

open Idealize.ShloMosaic

/-- The float literal zero, as an extended real (it is the real number 0: `Ideal.ofBits_zero_f32`). -/
abbrev z : EReal := Ideal.ofBits .f32 0x00000000#32
/-- The float literal nearest log 2, as an extended real (its exact binary value; the same word on both sides, never evaluated). -/
abbrev ln2 : EReal := Ideal.ofBits .f32 0x3F317218#32

/-- The shifted softplus as the reference spells it: the exponent is the negation of |x − 0|. -/
def ssp (y : EReal) : EReal :=
  Scalar.select (Ideal.cmp .une (y - z) (y - z)) (y + z)
    (max y z + Ideal.log1p (Ideal.exp (-(max (y - z) (-(y - z)))))) - ln2

/-- The same as the kernel spells it: the exponent is 0 − |x − 0|, the guard uses the ordered predicate. -/
def sspK (y : EReal) : EReal :=
  Scalar.select (Ideal.cmp .one (y - z) (y - z)) (y + z)
    (max y z + Ideal.log1p (Ideal.exp (z - max (y - z) (-(y - z))))) - ln2

/-- 0 − a = −a on the extended reals, the zero being the float literal. -/
theorem zero_lit_sub (a : EReal) : z - a = -a := by
  show Ideal.ofBits .f32 0x00000000#32 - a = -a
  rw [Ideal.ofBits_zero_f32, zero_sub]

/-- The two spellings are one function. -/
theorem sspK_eq (y : EReal) : sspK y = ssp y := by
  unfold sspK ssp
  rw [zero_lit_sub]
  rfl

variable {s : Shape}

/-- The kernel's activation on a whole vector of shape `s`, operation by operation as the kernel body has it. -/
def actK (y : FVec Ideal s .f32) : FVec Ideal s .f32 :=
  subf (select (cmpf .one (subf y (broadcast s (Scalar.ofBits (F := Ideal) .f32 0x00000000#32))) (subf y (broadcast s (Scalar.ofBits (F := Ideal) .f32 0x00000000#32))))
      (addf y (broadcast s (Scalar.ofBits (F := Ideal) .f32 0x00000000#32)))
      (addf (maximumf y (broadcast s (Scalar.ofBits (F := Ideal) .f32 0x00000000#32)))
        (log1p (exp (subf (broadcast s (Scalar.ofBits (F := Ideal) .f32 0x00000000#32)) (absf (subf y (broadcast s (Scalar.ofBits (F := Ideal) .f32 0x00000000#32)))))))))
    (broadcast s (Scalar.ofBits (F := Ideal) .f32 0x3F317218#32))

/-- At an element it is the scalar function (every operation is pointwise). -/
theorem actK_apply (y : FVec Ideal s .f32) (i : s.Idx) : actK y i = ssp (y i) :=
  (show actK y i = sspK (y i) from rfl).trans (sspK_eq _)

end Cert.Softplus

end
-- ==== Proof.Spec.lean ====
/-
  The mathematics both programs compute, on plain functions of plain indices (no program, no layout).

  Per edge i and feature j the message is (∑ₖ rbf i k · w j k) · m i j. Per node the three dense layers act on the
  node's 128-vector x: x ↦ ssp (∑_d x d · W d e + b e), with ssp the shifted softplus, and the output projection is
  x ↦ ∑_d x d · O d j. A weight is indexed (input feature d, output feature e): a program that stores it the other way
  round passes it transposed.
-/
import proofs.«181056_j21191368639071_1_alg».proof.Proof.Softplus

noncomputable section

namespace Cert.Spec

open Cert.Softplus

/-- One dense layer with the shifted-softplus activation on a feature vector. -/
def dense (W : Fin 128 → Fin 128 → EReal) (b : Fin 128 → EReal) (x : Fin 128 → EReal) : Fin 128 → EReal :=
  fun e => ssp ((∑ d : Fin 128, x d * W d e) + b e)

/-- A dense layer depends on its weight, bias and input only through their values. -/
theorem dense_congr {W W' : Fin 128 → Fin 128 → EReal} {b b' : Fin 128 → EReal} {x x' : Fin 128 → EReal}
    (hW : ∀ d e, W d e = W' d e) (hb : ∀ e, b e = b' e) (hx : ∀ d, x d = x' d) : dense W b x = dense W' b' x' := by
  have eW : W = W' := funext fun d => funext fun e => hW d e
  have eb : b = b' := funext hb
  have ex : x = x' := funext hx
  rw [eW, eb, ex]

/-- The output projection of a feature vector onto output features `J`. -/
def proj {J : Type} (O : Fin 128 → J → EReal) (x : Fin 128 → EReal) : J → EReal :=
  fun j => ∑ d : Fin 128, x d * O d j

/-- The node network: three dense layers, then the projection. -/
def mlp {J : Type} (W : Fin 3 → Fin 128 → Fin 128 → EReal) (b : Fin 3 → Fin 128 → EReal) (O : Fin 128 → J → EReal)
    (x : Fin 128 → EReal) : J → EReal :=
  proj O (dense (W 2) (b 2) (dense (W 1) (b 1) (dense (W 0) (b 0) x)))

/-- The network at an output feature depends on the projection only through that feature's column, and on the other
    parameters and the input only through their values. -/
theorem mlp_congr {J J' : Type} {W W' : Fin 3 → Fin 128 → Fin 128 → EReal} {b b' : Fin 3 → Fin 128 → EReal}
    {O : Fin 128 → J → EReal} {O' : Fin 128 → J' → EReal} {x x' : Fin 128 → EReal} {j : J} {j' : J'}
    (hW : ∀ l d e, W l d e = W' l d e) (hb : ∀ l e, b l e = b' l e) (hO : ∀ d, O d j = O' d j') (hx : ∀ d, x d = x' d) :
    mlp W b O x j = mlp W' b' O' x' j' := by
  unfold mlp proj
  have e : dense (W 2) (b 2) (dense (W 1) (b 1) (dense (W 0) (b 0) x)) = dense (W' 2) (b' 2) (dense (W' 1) (b' 1) (dense (W' 0) (b' 0) x')) :=
    dense_congr (hW 2) (hb 2) fun d => congrFun (dense_congr (hW 1) (hb 1) fun d => congrFun (dense_congr (hW 0) (hb 0) hx) d) d
  rw [e]
  exact Finset.sum_congr rfl fun d _ => by rw [hO d]

end Cert.Spec

end
-- ==== Proof.KernelBody.lean ====
/-
  What each of the two kernel bodies stores, read at an element of the stored block.

  The edge body stores (rbf-block · wᵀ) ⊙ m-block: at row r, lane j, (∑ₖ rbf r k · wᵀ k j) · m r j.
  The node body stores, at row r, lane j, the node network of Spec applied to row r of the loaded node block, with the
  weights read out of the three loaded operands: layer l's weight at (input d, output e) is the 3-d operand at (l, d, e),
  its bias at e the 3-d operand at (l, 0, e), and the projection at (d, j) the 2-d operand at (d, j). A matrix product
  into a zero accumulator is the plain sum over the contracted axis on the extended reals.
-/
import proofs.«181056_j21191368639071_1_alg».proof.Proof.Gen.KernelIdeal.Frame
import proofs.«181056_j21191368639071_1_alg».proof.Proof.Spec
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.TcCoe Cert.KernelIdeal Cert.KernelIdeal.Gen ValueIdx Cert.Softplus Cert.Spec

/-! ## The two matrix products at an element -/

theorem matmul_edge_lhs0 (i : S10000x128.Idx) (q : dot_S10000x16_S16x128_S10000x128_1_0_0_1_n_n.contr.Idx) : (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
theorem matmul_edge_rhs1 (i : S10000x128.Idx) (q : dot_S10000x16_S16x128_S10000x128_1_0_0_1_n_n.contr.Idx) : (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-- [10000,16] · [16,128] into zero, at (r, j): ∑ₖ l (r,k) · w (k,j). -/
theorem matmul_edge_apply (l : FVec Ideal S10000x16 .f32) (w : FVec Ideal S16x128 .f32) (r : Fin 10000) (j : Fin 128) :
    matmul dot_S10000x16_S16x128_S10000x128_1_0_0_1_n_n none l w (constant S10000x128 .f32 0x00000000#32) (ix2 r j)
      = ∑ k : Fin 16, l (ix2 r k) * w (ix2 k j) := by
  simp only [matmul]
  rw [Ideal.matmul_constant_zero_apply, ← Equiv.sum_comp (contrEquiv1 dot_S10000x16_S16x128_S10000x128_1_0_0_1_n_n 16 rfl rfl).symm]
  refine Finset.sum_congr rfl fun k _ => ?_
  have hk := contrEquiv1_symm_val dot_S10000x16_S16x128_S10000x128_1_0_0_1_n_n 16 rfl rfl k
  have el : dot_S10000x16_S16x128_S10000x128_1_0_0_1_n_n.lhsIdx (ix2 r j) ((contrEquiv1 dot_S10000x16_S16x128_S10000x128_1_0_0_1_n_n 16 rfl rfl).symm k) = ix2 r k :=
    funext fun a => Fin.ext (by
      match a with
      | ⟨0, _⟩ => exact matmul_edge_lhs0 _ _
      | ⟨1, _⟩ => exact (dot_S10000x16_S16x128_S10000x128_1_0_0_1_n_n.lhsIdx_val_of_single rfl _ _).trans hk)
  have er : dot_S10000x16_S16x128_S10000x128_1_0_0_1_n_n.rhsIdx (ix2 r j) ((contrEquiv1 dot_S10000x16_S16x128_S10000x128_1_0_0_1_n_n 16 rfl rfl).symm k) = ix2 k j :=
    funext fun a => Fin.ext (by
      match a with
      | ⟨0, _⟩ => exact (dot_S10000x16_S16x128_S10000x128_1_0_0_1_n_n.rhsIdx_val_of_single rfl _ _).trans hk
      | ⟨1, _⟩ => exact matmul_edge_rhs1 _ _)
  rw [el, er]

theorem matmul_node_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmul_node_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- [5000,128] · [128,128] into zero, at (r, e): ∑_d l (r,d) · w (d,e). -/
theorem matmul_node_apply (l : FVec Ideal S5000x128 .f32) (w : FVec Ideal S128x128 .f32) (r : Fin 5000) (j : Fin 128) :
    matmul dot_S5000x128_S128x128_S5000x128_1_0_0_1_n_n none l w (constant S5000x128 .f32 0x00000000#32) (ix2 r j)
      = ∑ k : Fin 128, l (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun a => Fin.ext (by
      match a with
      | ⟨0, _⟩ => exact matmul_node_lhs0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun a => Fin.ext (by
      match a with
      | ⟨0, _⟩ => exact (dot_S5000x128_S128x128_S5000x128_1_0_0_1_n_n.rhsIdx_val_of_single rfl _ _).trans hk
      | ⟨1, _⟩ => exact matmul_node_rhs1 _ _)
  rw [el, er]

/-! ## The edge body -/

/-- The edge body's stored value at row r, lane j. -/
theorem pay_edge_apply (x0 : FVec Ideal S10000x16 .f32) (x2 : FVec Ideal S16x128 .f32) (x1 : FVec Ideal S10000x128 .f32)
    (r : Fin 10000) (j : Fin 128) :
    k0_pay1 (F := Ideal) x0 x2 x1 (ix2 r j) = (∑ k : Fin 16, x0 (ix2 r k) * x2 (ix2 k j)) * x1 (ix2 r j) := by
  unfold k0_pay1
  rw [shapeCast_self]
  show matmul dot_S10000x16_S16x128_S10000x128_1_0_0_1_n_n none x0 x2 (constant S10000x128 .f32 0x00000000#32) (ix2 r j) * x1 (ix2 r j) = _
  rw [matmul_edge_apply]

/-! ## The node body -/

/-- One dense layer of the node body before its activation, on a node block: h · W + b, with W a [1,128,128] slice of the
    weight operand and b a [1,1,128] slice of the bias operand (the bias row repeated down the block). -/
def linK (h : FVec Ideal S5000x128 .f32) (W : FVec Ideal S1x128x128 .f32) (b : FVec Ideal S1x1x128 .f32) : FVec Ideal S5000x128 .f32 :=
  addf (matmul dot_S5000x128_S128x128_S5000x128_1_0_0_1_n_n none h (shapeCast S128x128 W shapeCasts_S1x128x128_S128x128) (constant S5000x128 .f32 0x00000000#32))
    (broadcastTo S5000x128 (shapeCast S1x128 b shapeCasts_S1x1x128_S1x128) broadcasts_S1x128_S5000x128)

/-- A [1,128,128] slice viewed [128,128], at (d, e), is the slice at (0, d, e). -/
theorem cast_w_apply (W : FVec Ideal S1x128x128 .f32) (d e : Fin 128) :
    shapeCast S128x128 W shapeCasts_S1x128x128_S128x128 (ix2 d e) = W (ix3 0 d e) := by
  rw [shapeCast_dropUnit_apply]
  exact congrArg W (funext fun a => by match a with | ⟨0, _⟩ => rfl | ⟨1, _⟩ => rfl | ⟨2, _⟩ => rfl)

/-- A [1,1,128] slice viewed [1,128], at (0, e), is the slice at (0, 0, e). -/
theorem cast_b_apply (b : FVec Ideal S1x1x128 .f32) (e : Fin 128) :
    shapeCast S1x128 b shapeCasts_S1x1x128_S1x128 (ix2 0 e) = b (ix3 0 0 e) := by
  rw [shapeCast_dropUnit_apply]
  exact congrArg b (funext fun a => by match a with | ⟨0, _⟩ => rfl | ⟨1, _⟩ => rfl | ⟨2, _⟩ => rfl)

/-- The layer before its activation at row r, lane e: ∑_d h (r,d) · W (0,d,e) + b (0,0,e). -/
theorem linK_apply (h : FVec Ideal S5000x128 .f32) (W : FVec Ideal S1x128x128 .f32) (b : FVec Ideal S1x1x128 .f32)
    (r : Fin 5000) (e : Fin 128) :
    linK h W b (ix2 r e) = (∑ d : Fin 128, h (ix2 r d) * W (ix3 0 d e)) + b (ix3 0 0 e) := by
  unfold linK
  rw [addf_apply, matmul_node_apply]
  rw [broadcastTo_apply _ broadcasts_S1x128_S5000x128 (ix2 r e) (ix2 0 e) (fun a => by
    match a with
    | ⟨0, _⟩ => rfl
    | ⟨1, _⟩ => rfl), cast_b_apply]
  exact congrArg (· + b (ix3 0 0 e)) (Finset.sum_congr rfl fun d _ => by rw [cast_w_apply])

/-- A layer with its activation, at row r, is the dense layer of Spec on row r of its input. -/
theorem act_lin_apply (h : FVec Ideal S5000x128 .f32) (W : FVec Ideal S1x128x128 .f32) (b : FVec Ideal S1x1x128 .f32)
    (r : Fin 5000) (e : Fin 128) :
    actK (linK h W b) (ix2 r e) = dense (fun d e => W (ix3 0 d e)) (fun e => b (ix3 0 0 e)) (fun d => h (ix2 r d)) e := by
  rw [actK_apply, linK_apply]; rfl

/-- The value the node body passes between its two halves is two layers deep. -/
theorem pay_node2_eq (v0 : Vec Ideal S5000x128 .f32) (v2 : Vec Ideal S1x128x128 .f32) (v4 : Vec Ideal S1x1x128 .f32)
    (v25 : Vec Ideal S1x128x128 .f32) (v27 : Vec Ideal S1x1x128 .f32) :
    k1_pay2 (F := Ideal) v0 v2 v4 v25 v27
      = linK (actK (linK (shapeCast S5000x128 v0 shapeCasts_S5000x128_S5000x128) v2 v4)) v25 v27 := rfl

/-- The value the node body stores: the third layer's activation, projected. -/
theorem pay_node1_eq (v0 : Vec Ideal S5000x128 .f32) (v2 : Vec Ideal S1x128x128 .f32) (v4 : Vec Ideal S1x1x128 .f32)
    (v25 : Vec Ideal S1x128x128 .f32) (v27 : Vec Ideal S1x1x128 .f32) (v48 : Vec Ideal S1x128x128 .f32)
    (v50 : Vec Ideal S1x1x128 .f32) (v71 : Vec Ideal S128x128 .f32) :
    k1_pay1 (F := Ideal) (k1_pay3 (F := Ideal) v0 v2 v4 v25 v27) (k1_pay4 (F := Ideal) v0 v2 v4 v25 v27) (k1_pay5 (F := Ideal) v0 v2 v4 v25 v27) (k1_pay6 (F := Ideal) v0 v2 v4 v25 v27) v48 v50 v71
      = matmul dot_S5000x128_S128x128_S5000x128_1_0_0_1_n_n none (actK (linK (actK (k1_pay2 (F := Ideal) v0 v2 v4 v25 v27)) v48 v50))
          (shapeCast S128x128 v71 shapeCasts_S128x128_S128x128 : FVec Ideal S128x128 .f32) (constant S5000x128 .f32 0x00000000#32) := rfl

theorem hz2 : (![0, 0] : Fin 2 → Nat) = fun _ => 0 := funext fun a => by fin_cases a <;> rfl

/-- The loads of the weight and bias operands, slice l at offset (l, 0, 0), read at an element. -/
theorem ld_w0 (x1 : Vec Ideal S3x128x128 .f32) (d e : Fin 128) : View.ld x1 r1_1 (ix3 0 d e) = x1 (ix3 0 d e) :=
  congrArg x1 (funext fun a => Fin.ext (by
    match a with
    | ⟨0, _⟩ => rfl
    | ⟨1, _⟩ => show 0 + 1 * d.val = d.val; omega
    | ⟨2, _⟩ => show 0 + 1 * e.val = e.val; omega))
theorem ld_w1 (x1 : Vec Ideal S3x128x128 .f32) (d e : Fin 128) : View.ld x1 r1_3 (ix3 0 d e) = x1 (ix3 1 d e) :=
  congrArg x1 (funext fun a => Fin.ext (by
    match a with
    | ⟨0, _⟩ => rfl
    | ⟨1, _⟩ => show 0 + 1 * d.val = d.val; omega
    | ⟨2, _⟩ => show 0 + 1 * e.val = e.val; omega))
theorem ld_w2 (x1 : Vec Ideal S3x128x128 .f32) (d e : Fin 128) : View.ld x1 r1_5 (ix3 0 d e) = x1 (ix3 2 d e) :=
  congrArg x1 (funext fun a => Fin.ext (by
    match a with
    | ⟨0, _⟩ => rfl
    | ⟨1, _⟩ => show 0 + 1 * d.val = d.val; omega
    | ⟨2, _⟩ => show 0 + 1 * e.val = e.val; omega))
theorem ld_b0 (x2 : Vec Ideal S3x1x128 .f32) (e : Fin 128) : View.ld x2 r1_2 (ix3 0 0 e) = x2 (ix3 0 0 e) :=
  congrArg x2 (funext fun a => Fin.ext (by
    match a with
    | ⟨0, _⟩ => rfl
    | ⟨1, _⟩ => rfl
    | ⟨2, _⟩ => show 0 + 1 * e.val = e.val; omega))
theorem ld_b1 (x2 : Vec Ideal S3x1x128 .f32) (e : Fin 128) : View.ld x2 r1_4 (ix3 0 0 e) = x2 (ix3 1 0 e) :=
  congrArg x2 (funext fun a => Fin.ext (by
    match a with
    | ⟨0, _⟩ => rfl
    | ⟨1, _⟩ => rfl
    | ⟨2, _⟩ => show 0 + 1 * e.val = e.val; omega))
theorem ld_b2 (x2 : Vec Ideal S3x1x128 .f32) (e : Fin 128) : View.ld x2 r1_6 (ix3 0 0 e) = x2 (ix3 2 0 e) :=
  congrArg x2 (funext fun a => Fin.ext (by
    match a with
    | ⟨0, _⟩ => rfl
    | ⟨1, _⟩ => rfl
    | ⟨2, _⟩ => show 0 + 1 * e.val = e.val; omega))

/-- What the node body leaves in its output block, at row r, lane j: the node network on row r of the node block, the
    weights read off the three operands as they are laid out there. -/
theorem out_node_apply (x0 : Vec Ideal S5000x128 .f32) (x1 : Vec Ideal S3x128x128 .f32) (x2 : Vec Ideal S3x1x128 .f32)
    (x3 : Vec Ideal S128x128 .f32) (r : Fin 5000) (j : Fin 128) :
    out1_4 (F := Ideal) x0 x1 x2 x3 (ix2 r j)
      = mlp (fun l d e => x1 (ix3 l d e)) (fun l e => x2 (ix3 l 0 e)) (fun d j => x3 (ix2 d j)) (fun d => x0 (ix2 r d)) j := by
  unfold out1_4
  rw [View.canon_unit_zero hz2]
  simp only [View.ld_unit_zero (S := S5000x128) hz2, View.ld_unit_zero (S := S128x128) hz2]
  rw [pay_node1_eq, pay_node2_eq, matmul_node_apply]
  simp only [act_lin_apply, shapeCast_self]
  unfold mlp proj
  exact Finset.sum_congr rfl fun d _ => congrArg (· * x3 (ix2 d j))
    (congrFun (dense_congr (ld_w2 x1) (ld_b2 x2) fun d =>
      congrFun (dense_congr (ld_w1 x1) (ld_b1 x2) fun d =>
        congrFun (dense_congr (ld_w0 x1) (ld_b0 x2) fun _ => rfl) d) d) d)

/-- What the edge body leaves in its output block, at row r, lane j. -/
theorem out_edge_apply (x0 : Vec Ideal S10000x16 .f32) (x1 : Vec Ideal S10000x128 .f32) (x2 : Vec Ideal S16x128 .f32)
    (r : Fin 10000) (j : Fin 128) :
    out0_3 (F := Ideal) x0 x1 x2 (ix2 r j) = (∑ k : Fin 16, x0 (ix2 r k) * x2 (ix2 k j)) * x1 (ix2 r j) := by
  unfold out0_3
  rw [View.canon_unit_zero hz2]
  simp only [View.ld_unit_zero (S := S10000x16) hz2, View.ld_unit_zero (S := S16x128) hz2, View.ld_unit_zero (S := S10000x128) hz2]
  exact pay_edge_apply x0 x2 x1 r j

end Cert.KernelIdeal.Body

end
-- ==== Proof.KernelArrays.lean ====
/-
  From blocks to whole arrays, for each of the two regions, at any contents V the region is entered with.

  Edge region: grid point t works on rows 10000·t … 10000·t + 9999 of the edge arrays (the transposed weight is one block for
  every point), and what it writes back is that row block of ONE whole-array function: at edge i, lane j,
  (∑ₖ rbf i k · wᵀ k j) · m i j. The 50 blocks tile the 500000 rows, so the array ends holding that function.

  Node region: grid point t works on rows 5000·t … 5000·t + 4999 of the node array (weights, biases and projection are one
  block for every point), and what it writes back is that row block of the node network applied row by row. The 10
  blocks tile the 50000 rows.
-/
import proofs.«181056_j21191368639071_1_alg».proof.Proof.Gen.KernelIdeal.Frame
import proofs.«181056_j21191368639071_1_alg».proof.Proof.KernelBody

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Body ValueIdx Cert.Spec
open Idealize.ShloMosaic.Pipeline (Dat Cfg Window)

variable (V : (c : Dev nD) → (b : Ref sig .tc) → Buf (Elt Ideal) ((c : Thread nD τ).loc b))

/-! ## The two whole-array functions -/

/-- The message array: at edge i, lane j, (∑ₖ rbf i k · wᵀ k j) · m i j. -/
def edgeOut (rbf : S500000x16.Idx → Elt Ideal .f32) (m : S500000x128.Idx → Elt Ideal .f32) (wT : S16x128.Idx → Elt Ideal .f32) :
    S500000x128.Idx → Elt Ideal .f32 :=
  fun i => (∑ k : Fin 16, rbf (ix2 (i 0 : Fin 500000) k) * wT (ix2 k (i 1 : Fin 128))) * m i

/-- The node array after the network, in the node kernel's own layout of the weights (layer, input, output), biases
    (layer, 0, output) and projection (input, output). -/
def nodeOut (atom : S50000x128.Idx → Elt Ideal .f32) (W : S3x128x128.Idx → Elt Ideal .f32) (b : S3x1x128.Idx → Elt Ideal .f32)
    (O : S128x128.Idx → Elt Ideal .f32) : S50000x128.Idx → Elt Ideal .f32 :=
  fun i => mlp (J := Fin 128) (fun l d e => W (ix3 l d e)) (fun l e => b (ix3 l 0 e)) (fun d j => O (ix2 d j))
    (fun d => atom (ix2 (i 0 : Fin 50000) d)) (i 1 : Fin 128)

/-! ## The edge region -/

/-- The index maps over the 50 grid points: the three row-blocked windows move together, the weight stays. -/
theorem idx_edge : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = win0_3.index t (1 : Fin 2)
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point t writes back is block t of the message array. -/
theorem flushed_edge (c : Dev nD) (t : Fin cfg0.N) :
    (dat0 V c).flushed 3 t = ((cfg0.win 3).blk t).view.read (Elt Ideal) (edgeOut (V c main_arg1) (V c main_arg0) (V c main_v0)) := by
  show (cfg0.win 3).cut (grid0.coords t) ((dat0 V c).after 3 t) = _
  rw [after0_3]
  obtain ⟨e0, e1, e2, e3, e4, e5, e6, e7⟩ := idx_edge t
  funext y
  obtain ⟨r, j, rfl⟩ : ∃ (r : Fin 10000) (j : Fin 128), y = ix2 r j := ⟨y 0, y 1, eq_ix2 y⟩
  show out0_3 (iblk0 V c 0 t) (iblk0 V c 1 t) (iblk0 V c 2 t) (ix2 r j)
    = edgeOut (V c main_arg1) (V c main_arg0) (V c main_v0) (((cfg0.win 3).blk t).view.emb (ix2 r j))
  refine (out_edge_apply _ _ _ r j).trans ?_
  unfold edgeOut
  have h1 : iblk0 V c 1 t (ix2 r j) = V c main_arg0 (((cfg0.win 3).blk t).view.emb (ix2 r j)) := by
    show V c main_arg0 (((cfg0.win 1).blk t).view.emb (ix2 r j)) = V c main_arg0 (((cfg0.win 3).blk t).view.emb (ix2 r j))
    refine congrArg (V c main_arg0) (funext fun a => Fin.ext ?_)
    match a with
    | ⟨0, _⟩ => show win0_1.index t (0 : Fin 2) * 10000 + 1 * r.val = win0_3.index t (0 : Fin 2) * 10000 + 1 * r.val; omega
    | ⟨1, _⟩ => show win0_1.index t (1 : Fin 2) * 128 + 1 * j.val = win0_3.index t (1 : Fin 2) * 128 + 1 * j.val; omega
  have h0 : ∀ k : Fin 16, iblk0 V c 0 t (ix2 r k)
      = V c main_arg1 (ix2 ((((cfg0.win 3).blk t).view.emb (ix2 r j)) 0 : Fin 500000) k) := fun k => by
    show V c main_arg1 (((cfg0.win 0).blk t).view.emb (ix2 r k)) = _
    refine congrArg (V c main_arg1) (funext fun a => Fin.ext ?_)
    match a with
    | ⟨0, _⟩ => show win0_0.index t (0 : Fin 2) * 10000 + 1 * r.val = win0_3.index t (0 : Fin 2) * 10000 + 1 * r.val; omega
    | ⟨1, _⟩ => show win0_0.index t (1 : Fin 2) * 16 + 1 * k.val = k.val; omega
  have h2 : ∀ k : Fin 16, iblk0 V c 2 t (ix2 k j)
      = V c main_v0 (ix2 k ((((cfg0.win 3).blk t).view.emb (ix2 r j)) 1 : Fin 128)) := fun k => by
    show V c main_v0 (((cfg0.win 2).blk t).view.emb (ix2 k j)) = _
    refine congrArg (V c main_v0) (funext fun a => Fin.ext ?_)
    match a with
    | ⟨0, _⟩ => show win0_2.index t (0 : Fin 2) * 16 + 1 * k.val = k.val; omega
    | ⟨1, _⟩ => show win0_2.index t (1 : Fin 2) * 128 + 1 * j.val = win0_3.index t (1 : Fin 2) * 128 + 1 * j.val; omega
  rw [h1]
  exact congrArg (· * _) (Finset.sum_congr rfl fun k _ => by rw [h0 k, h2 k])

/-- An edge index is in point t's block iff its row is in the block's range (the lanes are whole). -/
theorem mem_blk_edge (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- Every edge row is in the block of point (row / 10000). -/
theorem cover_edge (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  let t : Fin cfg0.N := ⟨(i 0).val / 10000, by show (i 0).val / 10000 < 50; omega⟩
  obtain ⟨e0, e1, e2, e3, e4, e5, e6, e7⟩ := idx_edge t
  have e7' : win0_3.index t (0 : Fin 2) = (i 0).val / 10000 := e7
  refine ⟨t, flush0_3 t, ?_⟩
  rw [mem_blk_edge]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The message array after the edge region. -/
theorem edge_array (c : Dev nD) :
    (dat0 V c).arrAt 3 cfg0.N = edgeOut (V c main_arg1) (V c main_arg0) (V c main_v0) :=
  (dat0 V c).arrAt_eq_of_cover 3 _ (fun t _ => flushed_edge V c t) cover_edge

/-! ## The node region -/

/-- The index maps over the 10 grid points: input and output row blocks move together, the parameters stay. -/
theorem idx_node : ∀ t : Fin cfg1.N,
    win1_0.index t (0 : Fin 2) = win1_4.index t (0 : Fin 2) ∧ win1_0.index t (1 : Fin 2) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (1 : Fin 2) = 0 ∧ win1_4.index t (0 : Fin 2) = t.val :=
  (by decide +kernel : ∀ t : Fin grid1.N, _)

/-- What point t writes back is block t of the node-network array. -/
theorem flushed_node (c : Dev nD) (t : Fin cfg1.N) :
    (dat1 V c).flushed 4 t
      = ((cfg1.win 4).blk t).view.read (Elt Ideal) (nodeOut (V c main_v6) (V c main_v7) (V c main_v8) (V c main_v12)) := by
  show (cfg1.win 4).cut (grid1.coords t) ((dat1 V c).after 4 t) = _
  rw [after1_4]
  obtain ⟨e0, e1, e2, e3, e4, e5, e6, e7, e8, e9, e10, e11⟩ := idx_node t
  funext y
  obtain ⟨r, j, rfl⟩ : ∃ (r : Fin 5000) (j : Fin 128), y = ix2 r j := ⟨y 0, y 1, eq_ix2 y⟩
  show out1_4 (iblk1 V c 0 t) (iblk1 V c 1 t) (iblk1 V c 2 t) (iblk1 V c 3 t) (ix2 r j)
    = nodeOut (V c main_v6) (V c main_v7) (V c main_v8) (V c main_v12) (((cfg1.win 4).blk t).view.emb (ix2 r j))
  refine (out_node_apply _ _ _ _ r j).trans ?_
  unfold nodeOut
  have hW : (fun (l : Fin 3) (d e : Fin 128) => iblk1 V c 1 t (ix3 l d e)) = fun l d e => V c main_v7 (ix3 l d e) :=
    funext fun l => funext fun d => funext fun e => by
      show V c main_v7 (((cfg1.win 1).blk t).view.emb (ix3 l d e)) = _
      refine congrArg (V c main_v7) (funext fun a => Fin.ext ?_)
      match a with
      | ⟨0, _⟩ => show win1_1.index t (0 : Fin 3) * 3 + 1 * l.val = l.val; omega
      | ⟨1, _⟩ => show win1_1.index t (1 : Fin 3) * 128 + 1 * d.val = d.val; omega
      | ⟨2, _⟩ => show win1_1.index t (2 : Fin 3) * 128 + 1 * e.val = e.val; omega
  have hb : (fun (l : Fin 3) (e : Fin 128) => iblk1 V c 2 t (ix3 l 0 e)) = fun l e => V c main_v8 (ix3 l 0 e) :=
    funext fun l => funext fun e => by
      show V c main_v8 (((cfg1.win 2).blk t).view.emb (ix3 l 0 e)) = _
      refine congrArg (V c main_v8) (funext fun a => Fin.ext ?_)
      match a with
      | ⟨0, _⟩ => show win1_2.index t (0 : Fin 3) * 3 + 1 * l.val = l.val; omega
      | ⟨1, _⟩ => show win1_2.index t (1 : Fin 3) * 1 + 1 * 0 = 0; omega
      | ⟨2, _⟩ => show win1_2.index t (2 : Fin 3) * 128 + 1 * e.val = e.val; omega
  have hO : (fun (d j : Fin 128) => iblk1 V c 3 t (ix2 d j)) = fun d j => V c main_v12 (ix2 d j) :=
    funext fun d => funext fun j => by
      show V c main_v12 (((cfg1.win 3).blk t).view.emb (ix2 d j)) = _
      refine congrArg (V c main_v12) (funext fun a => Fin.ext ?_)
      match a with
      | ⟨0, _⟩ => show win1_3.index t (0 : Fin 2) * 128 + 1 * d.val = d.val; omega
      | ⟨1, _⟩ => show win1_3.index t (1 : Fin 2) * 128 + 1 * j.val = j.val; omega
  have hx : (fun d : Fin 128 => iblk1 V c 0 t (ix2 r d))
      = fun d => V c main_v6 (ix2 ((((cfg1.win 4).blk t).view.emb (ix2 r j)) 0 : Fin 50000) d) :=
    funext fun d => by
      show V c main_v6 (((cfg1.win 0).blk t).view.emb (ix2 r d)) = _
      refine congrArg (V c main_v6) (funext fun a => Fin.ext ?_)
      match a with
      | ⟨0, _⟩ => show win1_0.index t (0 : Fin 2) * 5000 + 1 * r.val = win1_4.index t (0 : Fin 2) * 5000 + 1 * r.val; omega
      | ⟨1, _⟩ => show win1_0.index t (1 : Fin 2) * 128 + 1 * d.val = d.val; omega
  have hj : j = ((((cfg1.win 4).blk t).view.emb (ix2 r j)) 1 : Fin 128) :=
    Fin.ext (by show j.val = win1_4.index t (1 : Fin 2) * 128 + 1 * j.val; omega)
  rw [hW, hb, hO, hx]
  exact congrArg _ hj

/-- A node index is in point t's block iff its row is in the block's range (the lanes are whole). -/
theorem mem_blk_node (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v13).slice (win1_4.rect t)).set ↔ _
  rw [View.set_slice_whole, Rect.mem_set_unit]
  exact Iff.rfl

/-- Every node row is in the block of point (row / 5000). -/
theorem cover_node (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 5000, by show (i 0).val / 5000 < 10; omega⟩
  obtain ⟨e0, e1, e2, e3, e4, e5, e6, e7, e8, e9, e10, e11⟩ := idx_node t
  have e11' : win1_4.index t (0 : Fin 2) = (i 0).val / 5000 := e11
  refine ⟨t, flush1_4 t, ?_⟩
  rw [mem_blk_node]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The node array after the node region. -/
theorem node_array (c : Dev nD) :
    (dat1 V c).arrAt 4 cfg1.N = nodeOut (V c main_v6) (V c main_v7) (V c main_v8) (V c main_v12) :=
  (dat1 V c).arrAt_eq_of_cover 4 _ (fun t _ => flushed_node V c t) cover_node

end Cert.KernelIdeal.Arrays

end
-- ==== Proof.KernelRun.lean ====
/-
  The idealized kernel program's run with its RESULT kept: every weakly fair execution terminates with the result array at
  the contents the last host stretch leaves, the arguments as launched.

  @main is five segments: a transpose of the edge weight; the edge region; the host stretch that builds the scatter
  indices, scatter-adds the messages into the node array and lays out the node parameters (weights transposed per layer,
  biases as rows, the projection padded to 128 rows and transposed); the node region; the slice of the first 12 lanes.
  The contents at each boundary are a fold through these; this module reads the result buffer back through the fold.
-/
import proofs.«181056_j21191368639071_1_alg».proof.Proof.Gen.KernelIdeal.Frame
import proofs.«181056_j21191368639071_1_alg».proof.Proof.KernelArrays
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Arrays

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, its post naming the result buffer's final contents (the last boundary's) beside the unchanged arguments. -/
theorem run_result : θ_run defs (onTc (τ := τ) (main (F := Ideal))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-! ## The contents at each boundary, read back to the launch memory -/

/-- The transposed edge weight, as the edge region finds it. -/
def wT (w : FVec Ideal S128x16 .f32) : FVec Ideal S16x128 .f32 :=
  transpose S16x128 [1, 0] w transposes_S128x16_S16x128_1_0

/-- The node array before the network: the messages scatter-added into zeros at the destinations read off row 1 of the
    edge-index array. (The two programs apply the same operations here; the sum itself is never opened.) -/
def atomOf (idx : IVec S2x500000 32) (msg : FVec Ideal S500000x128 .f32) : FVec Ideal S50000x128 .f32 :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0
      (shapeCast S500000 (extractStridedSlice S1x500000 ![1, 0] idx slices_S2x500000_S1x500000_1_0) shapeCasts_S1x500000_S500000))
    msg

/-- The layer weights as the node region finds them: each layer's matrix transposed. -/
def wLayers (w : FVec Ideal S3x128x128 .f32) : FVec Ideal S3x128x128 .f32 :=
  transpose S3x128x128 [0, 2, 1] w transposes_S3x128x128_S3x128x128_0_2_1

/-- The biases as the node region finds them: each layer's vector as a row. -/
def bLayers (b : FVec Ideal S3x128 .f32) : FVec Ideal S3x1x128 .f32 :=
  shapeCast S3x1x128 b shapeCasts_S3x128_S3x1x128

/-- The projection as the node region finds it: written into the first 12 rows of a zero [128,128] matrix, transposed. -/
def oPadT (o : FVec Ideal S12x128 .f32) : FVec Ideal S128x128 .f32 :=
  transpose S128x128 [1, 0]
    (Host.scatter scatter_S128x128_S1_S12x128_01_n_0_0 (fun _ b => b)
      (broadcastInDim S128x128 ![] bcast_S_S128x128 (constant (F := Ideal) S_ .f32 0x00000000#32))
      (broadcastInDim S1 ![] bcast_S_S1 (constantI S_ 32 0#32)) o)
    transposes_S128x128_S128x128_1_0

variable (c : Dev nD)

theorem V1_arg0 : V1 m ρ c main_arg0 = m ((c : Thread nD τ).loc main_arg0) := by
  show StableHlo.after hostOps0 (W0 m ρ c) (Proc.devRef .tc main_arg0) = _
  after_results <;> rfl
theorem V1_arg1 : V1 m ρ c main_arg1 = m ((c : Thread nD τ).loc main_arg1) := by
  show StableHlo.after hostOps0 (W0 m ρ c) (Proc.devRef .tc main_arg1) = _
  after_results <;> rfl
theorem V1_v0 : V1 m ρ c main_v0 = wT (m ((c : Thread nD τ).loc main_arg3)) := by
  show StableHlo.after hostOps0 (W0 m ρ c) (Proc.devRef .tc main_v0) = _
  after_results <;> rfl

/-- An argument the edge region does not touch is, at its exit, as launched. -/
theorem W2_arg2 : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_arg4 : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem W2_arg5 : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem W2_arg6 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

/-- The message array at the edge region's exit. -/
theorem W2_v1 : W2 m ρ c (Proc.devRef .tc main_v1)
    = edgeOut (m ((c : Thread nD τ).loc main_arg1)) (m ((c : Thread nD τ).loc main_arg0)) (wT (m ((c : Thread nD τ).loc main_arg3))) := by
  refine (W2_arr m ρ c 3).trans ((edge_array (V1 m ρ) c).trans ?_)
  rw [V1_arg1, V1_arg0, V1_v0]

/-- The node region's operands as it finds them. -/
theorem V3_v6 : V3 m ρ c main_v6
    = atomOf (m ((c : Thread nD τ).loc main_arg2))
        (edgeOut (m ((c : Thread nD τ).loc main_arg1)) (m ((c : Thread nD τ).loc main_arg0)) (wT (m ((c : Thread nD τ).loc main_arg3)))) := by
  rw [← W2_v1 m ρ c, ← W2_arg2 m ρ c]
  show StableHlo.after hostOps1 (W2 m ρ c) (Proc.devRef .tc main_v6) = _
  after_results <;> rfl
theorem V3_v7 : V3 m ρ c main_v7 = wLayers (m ((c : Thread nD τ).loc main_arg4)) := by
  rw [← W2_arg4 m ρ c]
  show StableHlo.after hostOps1 (W2 m ρ c) (Proc.devRef .tc main_v7) = _
  after_results <;> rfl
theorem V3_v8 : V3 m ρ c main_v8 = bLayers (m ((c : Thread nD τ).loc main_arg5)) := by
  rw [← W2_arg5 m ρ c]
  show StableHlo.after hostOps1 (W2 m ρ c) (Proc.devRef .tc main_v8) = _
  after_results <;> rfl
theorem V3_v12 : V3 m ρ c main_v12 = oPadT (m ((c : Thread nD τ).loc main_arg6)) := by
  rw [← W2_arg6 m ρ c]
  show StableHlo.after hostOps1 (W2 m ρ c) (Proc.devRef .tc main_v12) = _
  after_results <;> rfl

/-- The result buffer after the run: the first 12 lanes of the node-network array. -/
theorem W5_result : W5 m ρ c (Proc.devRef .tc main_v14)
    = extractStridedSlice S50000x12 ![0, 0]
        (nodeOut
          (atomOf (m ((c : Thread nD τ).loc main_arg2))
            (edgeOut (m ((c : Thread nD τ).loc main_arg1)) (m ((c : Thread nD τ).loc main_arg0)) (wT (m ((c : Thread nD τ).loc main_arg3)))))
          (wLayers (m ((c : Thread nD τ).loc main_arg4))) (bLayers (m ((c : Thread nD τ).loc main_arg5))) (oPadT (m ((c : Thread nD τ).loc main_arg6))))
        slices_S50000x128_S50000x12_0_0 := by
  rw [← V3_v6 m ρ c, ← V3_v7 m ρ c, ← V3_v8 m ρ c, ← V3_v12 m ρ c, ← node_array (V3 m ρ) c, ← W4_arr m ρ c 4]
  show StableHlo.after hostOps2 (W4 m ρ c) (Proc.devRef .tc main_v14) = _
  after_results <;> rfl

end Cert.KernelIdeal.RunValue

end
-- ==== Proof.LibScatterSet.lean ====
/-
  The host scatter that OVERWRITES (`x.at[...].set(u)`), read at an entry.

  The scatter visits the update entries in row-major order; an update entry that lands inside the operand
  replaces the element it lands on.  So an operand entry on which no update lands keeps its value, and an
  entry on which exactly one update entry lands ends as that update entry — whatever the dimension
  numbers are.  (Which update lands where is the dimension numbers' arithmetic, a separate question.)
-/
import Idealize.ShloMosaic.PureOps.ShapeOps

open Idealize.ShloMosaic

namespace Cert.Proof.LibScatterSet

variable {α : Type} {s si u : Shape} {w : Nat}

/-- One step of the fold. -/
private abbrev step (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

private theorem step_miss (d : ScatterDims s si u) (idx : IVec si w) (upd : u.Idx → α) (r : s.Idx → α)
    (n : Fin u.numel) (i' : s.Idx) (h : d.resultIdx? (u.rowMajor.symm n) idx ≠ some i') :
    step d idx upd r n i' = r i' := by
  unfold step
  generalize d.resultIdx? (u.rowMajor.symm n) idx = o at h
  cases o with
  | none => rfl
  | some i => exact if_neg fun e => h (congrArg some e.symm)

private theorem step_hit (d : ScatterDims s si u) (idx : IVec si w) (upd : u.Idx → α) (r : s.Idx → α)
    (n : Fin u.numel) (i' : s.Idx) (h : d.resultIdx? (u.rowMajor.symm n) idx = some i') :
    step d idx upd r n i' = upd (u.rowMajor.symm n) := by
  unfold step
  generalize d.resultIdx? (u.rowMajor.symm n) idx = o at h
  cases o with
  | none => exact absurd h (by simp)
  | some i =>
    have : i = i' := Option.some.inj h
    subst this
    exact if_pos rfl

private theorem foldl_miss (d : ScatterDims s si u) (idx : IVec si w) (upd : u.Idx → α) (i' : s.Idx)
    (l : List (Fin u.numel)) (r : s.Idx → α) (h : ∀ n ∈ l, d.resultIdx? (u.rowMajor.symm n) idx ≠ some i') :
    l.foldl (step d idx upd) r i' = r i' := by
  induction l generalizing r with
  | nil => rfl
  | cons n l ih =>
    rw [List.foldl_cons, ih _ (fun m hm => h m (List.mem_cons_of_mem _ hm)),
      step_miss d idx upd r n i' (h n List.mem_cons_self)]

private theorem foldl_hit (d : ScatterDims s si u) (idx : IVec si w) (upd : u.Idx → α) (i' : s.Idx)
    (n₀ : Fin u.numel) (h₀ : d.resultIdx? (u.rowMajor.symm n₀) idx = some i')
    (l : List (Fin u.numel)) (r : s.Idx → α) (hmem : n₀ ∈ l)
    (huniq : ∀ n ∈ l, d.resultIdx? (u.rowMajor.symm n) idx = some i' → n = n₀) :
    l.foldl (step d idx upd) r i' = upd (u.rowMajor.symm n₀) := by
  induction l generalizing r with
  | nil => exact absurd hmem List.not_mem_nil
  | cons n l ih =>
    rw [List.foldl_cons]
    by_cases hl : n₀ ∈ l
    · exact ih _ hl fun m hm => huniq m (List.mem_cons_of_mem _ hm)
    · have hn : n = n₀ := by
        rcases List.mem_cons.mp hmem with e | e
        · exact e.symm
        · exact absurd e hl
      rw [foldl_miss d idx upd i' l _ (fun m hm e => hl (huniq m (List.mem_cons_of_mem _ hm) e ▸ hm)), hn]
      exact step_hit d idx upd r n₀ i' h₀

/-- No update entry lands on `i'`: the operand's entry stays. -/
theorem scatter_set_apply_of_miss (d : ScatterDims s si u) (x : s.Idx → α) (idx : IVec si w) (upd : u.Idx → α)
    (i' : s.Idx) (h : ∀ j, d.resultIdx? j idx ≠ some i') :
    Host.scatter d (fun _ b => b) x idx upd i' = x i' :=
  foldl_miss d idx upd i' _ x fun n _ => h _

/-- The update entry `j` lands on `i'` and no other does: the entry ends as `upd j`. -/
theorem scatter_set_apply_of_hit (d : ScatterDims s si u) (x : s.Idx → α) (idx : IVec si w) (upd : u.Idx → α)
    (i' : s.Idx) (j : u.Idx) (hj : d.resultIdx? j idx = some i')
    (huniq : ∀ j', d.resultIdx? j' idx = some i' → j' = j) :
    Host.scatter d (fun _ b => b) x idx upd i' = upd j := by
  have e : u.rowMajor.symm (u.rowMajor j) = j := Equiv.symm_apply_apply _ _
  have := foldl_hit d idx upd i' (u.rowMajor j) (by rw [e]; exact hj) (List.finRange u.numel) x (List.mem_finRange _)
    (fun n _ hn => by
      have := huniq _ hn
      rw [← this]; exact (Equiv.apply_symm_apply _ _).symm)
  rw [e] at this
  exact this

end Cert.Proof.LibScatterSet
-- ==== Proof.KernelValue.lean ====
/-
  The kernel program's result at an entry (node n, output feature o < 12), as the node network of Spec.

  The slice keeps lanes 0…11, so the entry is the node-network array at (n, o). There the network reads: layer l's weight
  at (input d, output e) — the transposed layer matrix at (l, d, e), that is the argument at (l, e, d); its bias at e — the
  bias row at (l, 0, e), that is the argument at (l, e); the projection at (d, o) — the transpose of the padded matrix,
  that is the padded matrix at (o, d), and row o < 12 of the padded matrix is row o of the argument: the one write of the
  [12,128] argument at row offset 0 lands update entry (o, d) on (o, d), and no other update entry lands there.
-/
import proofs.«181056_j21191368639071_1_alg».proof.Proof.KernelRun
import proofs.«181056_j21191368639071_1_alg».proof.Proof.LibScatterSet
import Idealize.ShloMosaic.Lib.ValueIdx
import Idealize.ShloMosaic.Lib.Pipeline.Value

set_option maxRecDepth 16384

noncomputable section

namespace Cert.KernelIdeal.RunValue

open Idealize.ShloMosaic Idealize.ShloMosaic.TcCoe Idealize.SL.Sem
open Cert.KernelIdeal Cert.KernelIdeal.Gen Cert.KernelIdeal.Arrays ValueIdx Cert.Spec Cert.Proof.LibScatterSet

/-! ## The padded projection -/

/-- The scatter's one start index: the constant 0. -/
abbrev idx0 : IVec S1 32 := broadcastInDim S1 ![] bcast_S_S1 (constantI S_ 32 0#32)

theorem pad_start0 (j : S12x128.Idx) : scatter_S128x128_S1_S12x128_01_n_0_0.start j idx0 (0 : Fin 2) = 0 := by
  unfold ScatterDims.start
  rw [dif_pos (show (0 : Fin S128x128.rank) ∈ scatter_S128x128_S1_S12x128_01_n_0_0.scatterDimsToOperandDims by decide)]
  rfl
theorem pad_start1 (j : S12x128.Idx) : scatter_S128x128_S1_S12x128_01_n_0_0.start j idx0 (1 : Fin 2) = 0 := by
  unfold ScatterDims.start
  rw [dif_neg (show ¬(1 : Fin S128x128.rank) ∈ scatter_S128x128_S1_S12x128_01_n_0_0.scatterDimsToOperandDims by decide)]
theorem pad_window0 (j : S12x128.Idx) : scatter_S128x128_S1_S12x128_01_n_0_0.window j (0 : Fin 2) = (j 0).val := by
  unfold ScatterDims.window
  rw [dif_pos (show (0 : Fin S128x128.rank) ∈ scatter_S128x128_S1_S12x128_01_n_0_0.sKept by decide)]
  rfl
theorem pad_window1 (j : S12x128.Idx) : scatter_S128x128_S1_S12x128_01_n_0_0.window j (1 : Fin 2) = (j 1).val := by
  unfold ScatterDims.window
  rw [dif_pos (show (1 : Fin S128x128.rank) ∈ scatter_S128x128_S1_S12x128_01_n_0_0.sKept by decide)]
  rfl

/-- Where update entry j lands, on each axis: at its own coordinate (the start is 0 on both axes). -/
theorem pad_land (j : S12x128.Idx) (a : Fin 2) :
    scatter_S128x128_S1_S12x128_01_n_0_0.start j idx0 a + scatter_S128x128_S1_S12x128_01_n_0_0.window j a = ((j a).val : Int) := by
  match a with
  | ⟨0, _⟩ =>
    have h0 := pad_start0 j; have h1 := pad_window0 j
    show scatter_S128x128_S1_S12x128_01_n_0_0.start j idx0 (0 : Fin 2) + (scatter_S128x128_S1_S12x128_01_n_0_0.window j (0 : Fin 2) : Int) = ((j 0).val : Int)
    rw [h0, h1]; omega
  | ⟨1, _⟩ =>
    have h0 := pad_start1 j; have h1 := pad_window1 j
    show scatter_S128x128_S1_S12x128_01_n_0_0.start j idx0 (1 : Fin 2) + (scatter_S128x128_S1_S12x128_01_n_0_0.window j (1 : Fin 2) : Int) = ((j 1).val : Int)
    rw [h0, h1]; omega

/-- If update entry j lands on i, then i has j's coordinates. -/
theorem pad_result_val (j : S12x128.Idx) (i : S128x128.Idx)
    (h : scatter_S128x128_S1_S12x128_01_n_0_0.resultIdx? j idx0 = some i) (a : Fin 2) : (i a).val = (j a).val := by
  unfold ScatterDims.resultIdx? at h
  split at h
  · have e := Option.some.inj h
    rw [← e]
    show (scatter_S128x128_S1_S12x128_01_n_0_0.start j idx0 a + scatter_S128x128_S1_S12x128_01_n_0_0.window j a).toNat = (j a).val
    rw [pad_land]; omega
  · exact absurd h (by simp)

/-- Update entry (o, d) lands on (o, d). -/
theorem pad_result (o : Fin 12) (d : Fin 128) :
    scatter_S128x128_S1_S12x128_01_n_0_0.resultIdx? (ix2 o d) idx0 = some (ix2 (⟨o.val, by omega⟩ : Fin 128) d) := by
  unfold ScatterDims.resultIdx?
  have hin : ∀ a : Fin S128x128.rank, 0 ≤ scatter_S128x128_S1_S12x128_01_n_0_0.start (ix2 o d) idx0 a + scatter_S128x128_S1_S12x128_01_n_0_0.window (ix2 o d) a
      ∧ scatter_S128x128_S1_S12x128_01_n_0_0.start (ix2 o d) idx0 a + scatter_S128x128_S1_S12x128_01_n_0_0.window (ix2 o d) a < S128x128.size a := fun a => by
    rw [pad_land]
    match a with
    | ⟨0, _⟩ => show (0 : Int) ≤ (o.val : Int) ∧ (o.val : Int) < ((128 : Nat) : Int); omega
    | ⟨1, _⟩ => show (0 : Int) ≤ (d.val : Int) ∧ (d.val : Int) < ((128 : Nat) : Int); omega
  rw [dif_pos hin]
  refine congrArg some (funext fun a => Fin.ext ?_)
  show (scatter_S128x128_S1_S12x128_01_n_0_0.start (ix2 o d) idx0 a + scatter_S128x128_S1_S12x128_01_n_0_0.window (ix2 o d) a).toNat = _
  rw [pad_land]
  match a with
  | ⟨0, _⟩ => show ((o.val : Int)).toNat = o.val; omega
  | ⟨1, _⟩ => show ((d.val : Int)).toNat = d.val; omega

/-- The projection as the node region finds it, at (input d, lane o) for a lane o < 12: the argument at (o, d). -/
theorem oPadT_apply (x6 : FVec Ideal S12x128 .f32) (d : Fin 128) (o : Fin 12) :
    oPadT x6 (ix2 d (⟨o.val, by omega⟩ : Fin 128)) = x6 (ix2 o d) := by
  unfold oPadT
  rw [transpose_apply [1, 0] _ transposes_S128x128_S128x128_1_0 (ix2 d (⟨o.val, by omega⟩ : Fin 128)) (ix2 (⟨o.val, by omega⟩ : Fin 128) d) (fun b => by
    match b with
    | ⟨0, _⟩ => rfl
    | ⟨1, _⟩ => rfl)]
  exact scatter_set_apply_of_hit scatter_S128x128_S1_S12x128_01_n_0_0 _ idx0 x6 _ (ix2 o d) (pad_result o d) fun j' hj' =>
    funext fun a => Fin.ext (by
      have h := pad_result_val j' _ hj' a
      match a with
      | ⟨0, _⟩ => exact h.symm
      | ⟨1, _⟩ => exact h.symm)

/-! ## The layer parameters -/

theorem wLayers_apply (x4 : FVec Ideal S3x128x128 .f32) (l : Fin 3) (d e : Fin 128) :
    wLayers x4 (ix3 l d e) = x4 (ix3 l e d) := by
  unfold wLayers
  exact transpose_apply [0, 2, 1] x4 transposes_S3x128x128_S3x128x128_0_2_1 (ix3 l d e) (ix3 l e d) (fun b => by
    match b with
    | ⟨0, _⟩ => rfl
    | ⟨1, _⟩ => rfl
    | ⟨2, _⟩ => rfl)

theorem bLayers_apply (x5 : FVec Ideal S3x128 .f32) (l : Fin 3) (e : Fin 128) :
    bLayers x5 (ix3 l 0 e) = x5 (ix2 l e) := by
  unfold bLayers
  refine shapeCast_apply x5 shapeCasts_S3x128_S3x1x128 (ix3 l 0 e) (ix2 l e) ?_
  rw [Shape.rowMajor_val_two, Shape.rowMajor_val_three]
  show l.val * 128 + e.val = (l.val * 1 + 0) * 128 + e.val
  omega

/-! ## The result at an entry -/

variable (m : (ℓ : Loc nD τ sig) → Buf (Elt Ideal) ℓ) (ρ : Dev nD → PrngReg) (c : Dev nD)

/-- The kernel program's result at node n, output feature o. -/
theorem result_apply (n : Fin 50000) (o : Fin 12) :
    W5 m ρ c (Proc.devRef .tc main_v14) (ix2 n o)
      = mlp (J := Fin 12) (fun l d e => m ((c : Thread nD τ).loc main_arg4) (ix3 l e d)) (fun l e => m ((c : Thread nD τ).loc main_arg5) (ix2 l e))
          (fun d o => m ((c : Thread nD τ).loc main_arg6) (ix2 o d))
          (fun d => atomOf (m ((c : Thread nD τ).loc main_arg2))
            (edgeOut (m ((c : Thread nD τ).loc main_arg1)) (m ((c : Thread nD τ).loc main_arg0)) (wT (m ((c : Thread nD τ).loc main_arg3)))) (ix2 n d)) o := by
  rw [W5_result]
  rw [extractStridedSlice_apply ![0, 0] _ slices_S50000x128_S50000x12_0_0 (ix2 n o) (ix2 n (⟨o.val, by omega⟩ : Fin 128)) (fun a => by
    match a with
    | ⟨0, _⟩ => show n.val = 0 + n.val; omega
    | ⟨1, _⟩ => show o.val = 0 + o.val; omega)]
  unfold nodeOut
  exact mlp_congr (fun l d e => wLayers_apply _ l d e) (fun l e => bLayers_apply _ l e) (fun d => oPadT_apply _ d o) (fun d => rfl)

end Cert.KernelIdeal.RunValue

end
-- ==== Proof.RefValue.lean ====
/-
  The reference's result at an entry (node n, output feature o), as the node network of Spec.

  Each of the reference's three layers is: a product with the layer's [128,128] matrix contracted over the matrix's SECOND
  axis (so the weight at (input d, output e) is the argument at (l, e, d)), plus the layer's bias broadcast down the rows,
  then the shifted softplus (every operation of it pointwise, so at an element it is the scalar function). The last product
  contracts the 12 output rows' second axis: the projection at (d, o) is the argument at (o, d). The slices, reshapes and
  broadcasts of the parameters are re-indexings, read back one by one to the argument's own index.
-/
import proofs.«181056_j21191368639071_1_alg».proof.Proof.RefReadPatched
import proofs.«181056_j21191368639071_1_alg».proof.Proof.Spec

set_option maxRecDepth 16384

noncomputable section

namespace Cert.ReferenceIdeal.RefValue

open Idealize.ShloMosaic Idealize.ShloMosaic.TcCoe Cert.ReferenceIdeal Cert.ReferenceIdeal.ReadP ValueIdx Cert.Spec Cert.Softplus

variable (x0 : (⟨S500000x128, .f32⟩ : BufTy).Contents (Elt Ideal)) (x1 : (⟨S500000x16, .f32⟩ : BufTy).Contents (Elt Ideal))
  (x2 : (⟨S2x500000, .i32⟩ : BufTy).Contents (Elt Ideal)) (x3 : (⟨S128x16, .f32⟩ : BufTy).Contents (Elt Ideal))
  (x4 : (⟨S3x128x128, .f32⟩ : BufTy).Contents (Elt Ideal)) (x5 : (⟨S3x128, .f32⟩ : BufTy).Contents (Elt Ideal))
  (x6 : (⟨S12x128, .f32⟩ : BufTy).Contents (Elt Ideal))

/-- The reference's softplus and shift, operation by operation at an element, is the scalar function. -/
theorem ssp_host (y : Ideal .f32) :
    FloatOps.subf
      (Scalar.select (FloatOps.cmpf .une (FloatOps.subf y (FloatOps.ofBits .f32 0x00000000#32)) (FloatOps.subf y (FloatOps.ofBits .f32 0x00000000#32)))
        (FloatOps.addf y (FloatOps.ofBits .f32 0x00000000#32))
        (FloatOps.addf (FloatOps.maximumf y (FloatOps.ofBits .f32 0x00000000#32))
          (FloatOps.hostUnary .log1p (FloatOps.hostUnary .exp (FloatOps.hostNegf (FloatOps.hostAbsf (FloatOps.subf y (FloatOps.ofBits .f32 0x00000000#32))))))))
      (FloatOps.ofBits .f32 0x3F317218#32) = ssp y := rfl

/-- Layer 0 of the reference at node n, feature e: the dense layer of Spec on row n of the layer's input. -/
theorem layer0_apply (n : Fin 50000) (e : Fin 128) :
    val_main_v17 (F := Ideal) x0 x1 x2 x3 x4 x5 (ix2 n e)
      = dense (fun d e => x4 (ix3 0 e d)) (fun e => x5 (ix2 0 e)) (fun d => val_main_v6 (F := Ideal) x0 x1 x2 x3 (ix2 n d)) e := by
  have hact : val_main_v17 (F := Ideal) x0 x1 x2 x3 x4 x5 (ix2 n e) = ssp (val_main_v14 (F := Ideal) x0 x1 x2 x3 x4 x5 (ix2 n e)) := by
    simp only [val_main_v17_apply, val_main_v15_apply, val_main_call0_v4_apply, val_main_call0_v6_apply, val_main_call0_v11_apply, val_main_call0_v1_apply, val_main_call0_v10_apply,
      val_main_call0_v9_apply, val_main_call0_v8_apply, val_main_call0_v7_apply, val_main_call0_v3_apply, val_main_call0_v0_apply, val_main_call0_v2_apply, val_main_call0_v5_apply, val_main_call0_cst_apply,
      val_main_v16_apply, val_main_cst_0_apply]
    exact ssp_host _
  rw [hact, val_main_v14_apply, val_main_v9_apply, val_main_v13_apply, val_main_v12_apply, val_main_v11_apply, val_main_v10_apply]
  unfold dense
  refine congrArg ssp ?_
  show (∑ k : Fin 128, val_main_v6 (F := Ideal) x0 x1 x2 x3 (lidx_main_v9 (ix2 n e) k) * val_main_v8 (F := Ideal) x4 (ridx_main_v9 (ix2 n e) k))
      + x5 (idx_main_v10 (idx_main_v11 (idx_main_v12 (idx_main_v13 (ix2 n e))))) = _
  refine congrArg₂ (· + ·) (Finset.sum_congr rfl fun k _ => ?_) (congrArg x5 (funext fun a => Fin.ext ?_))
  · rw [val_main_v8_apply, val_main_v7_apply]
    refine congrArg₂ (· * ·) (congrArg _ (funext fun a => Fin.ext ?_)) (congrArg x4 (funext fun a => Fin.ext ?_))
    · match a with
      | ⟨0, _⟩ => rfl
      | ⟨1, _⟩ => rfl
    · match a with
      | ⟨0, _⟩ => rfl
      | ⟨1, _⟩ => show (e.val * 128 + k.val) / 128 % 128 = e.val; omega
      | ⟨2, _⟩ => show (e.val * 128 + k.val) % 128 = k.val; omega
  · match a with
    | ⟨0, _⟩ => rfl
    | ⟨1, _⟩ => show e.val % 128 = e.val; omega

/-- Layer 1 of the reference at node n, feature e: the dense layer of Spec on row n of the layer's input. -/
theorem layer1_apply (n : Fin 50000) (e : Fin 128) :
    val_main_v28 (F := Ideal) x0 x1 x2 x3 x4 x5 (ix2 n e)
      = dense (fun d e => x4 (ix3 1 e d)) (fun e => x5 (ix2 1 e)) (fun d => val_main_v17 (F := Ideal) x0 x1 x2 x3 x4 x5 (ix2 n d)) e := by
  have hact : val_main_v28 (F := Ideal) x0 x1 x2 x3 x4 x5 (ix2 n e) = ssp (val_main_v25 (F := Ideal) x0 x1 x2 x3 x4 x5 (ix2 n e)) := by
    simp only [val_main_v28_apply, val_main_v26_apply, val_main_call1_v4_apply, val_main_call1_v6_apply, val_main_call1_v11_apply, val_main_call1_v1_apply, val_main_call1_v10_apply,
      val_main_call1_v9_apply, val_main_call1_v8_apply, val_main_call1_v7_apply, val_main_call1_v3_apply, val_main_call1_v0_apply, val_main_call1_v2_apply, val_main_call1_v5_apply, val_main_call1_cst_apply,
      val_main_v27_apply, val_main_cst_1_apply]
    exact ssp_host _
  rw [hact, val_main_v25_apply, val_main_v20_apply, val_main_v24_apply, val_main_v23_apply, val_main_v22_apply, val_main_v21_apply]
  unfold dense
  refine congrArg ssp ?_
  show (∑ k : Fin 128, val_main_v17 (F := Ideal) x0 x1 x2 x3 x4 x5 (lidx_main_v20 (ix2 n e) k) * val_main_v19 (F := Ideal) x4 (ridx_main_v20 (ix2 n e) k))
      + x5 (idx_main_v21 (idx_main_v22 (idx_main_v23 (idx_main_v24 (ix2 n e))))) = _
  refine congrArg₂ (· + ·) (Finset.sum_congr rfl fun k _ => ?_) (congrArg x5 (funext fun a => Fin.ext ?_))
  · rw [val_main_v19_apply, val_main_v18_apply]
    refine congrArg₂ (· * ·) (congrArg _ (funext fun a => Fin.ext ?_)) (congrArg x4 (funext fun a => Fin.ext ?_))
    · match a with
      | ⟨0, _⟩ => rfl
      | ⟨1, _⟩ => rfl
    · match a with
      | ⟨0, _⟩ => rfl
      | ⟨1, _⟩ => show (e.val * 128 + k.val) / 128 % 128 = e.val; omega
      | ⟨2, _⟩ => show (e.val * 128 + k.val) % 128 = k.val; omega
  · match a with
    | ⟨0, _⟩ => rfl
    | ⟨1, _⟩ => show e.val % 128 = e.val; omega

/-- Layer 2 of the reference at node n, feature e: the dense layer of Spec on row n of the layer's input. -/
theorem layer2_apply (n : Fin 50000) (e : Fin 128) :
    val_main_v39 (F := Ideal) x0 x1 x2 x3 x4 x5 (ix2 n e)
      = dense (fun d e => x4 (ix3 2 e d)) (fun e => x5 (ix2 2 e)) (fun d => val_main_v28 (F := Ideal) x0 x1 x2 x3 x4 x5 (ix2 n d)) e := by
  have hact : val_main_v39 (F := Ideal) x0 x1 x2 x3 x4 x5 (ix2 n e) = ssp (val_main_v36 (F := Ideal) x0 x1 x2 x3 x4 x5 (ix2 n e)) := by
    simp only [val_main_v39_apply, val_main_v37_apply, val_main_call2_v4_apply, val_main_call2_v6_apply, val_main_call2_v11_apply, val_main_call2_v1_apply, val_main_call2_v10_apply,
      val_main_call2_v9_apply, val_main_call2_v8_apply, val_main_call2_v7_apply, val_main_call2_v3_apply, val_main_call2_v0_apply, val_main_call2_v2_apply, val_main_call2_v5_apply, val_main_call2_cst_apply,
      val_main_v38_apply, val_main_cst_2_apply]
    exact ssp_host _
  rw [hact, val_main_v36_apply, val_main_v31_apply, val_main_v35_apply, val_main_v34_apply, val_main_v33_apply, val_main_v32_apply]
  unfold dense
  refine congrArg ssp ?_
  show (∑ k : Fin 128, val_main_v28 (F := Ideal) x0 x1 x2 x3 x4 x5 (lidx_main_v31 (ix2 n e) k) * val_main_v30 (F := Ideal) x4 (ridx_main_v31 (ix2 n e) k))
      + x5 (idx_main_v32 (idx_main_v33 (idx_main_v34 (idx_main_v35 (ix2 n e))))) = _
  refine congrArg₂ (· + ·) (Finset.sum_congr rfl fun k _ => ?_) (congrArg x5 (funext fun a => Fin.ext ?_))
  · rw [val_main_v30_apply, val_main_v29_apply]
    refine congrArg₂ (· * ·) (congrArg _ (funext fun a => Fin.ext ?_)) (congrArg x4 (funext fun a => Fin.ext ?_))
    · match a with
      | ⟨0, _⟩ => rfl
      | ⟨1, _⟩ => rfl
    · match a with
      | ⟨0, _⟩ => rfl
      | ⟨1, _⟩ => show (e.val * 128 + k.val) / 128 % 128 = e.val; omega
      | ⟨2, _⟩ => show (e.val * 128 + k.val) % 128 = k.val; omega
  · match a with
    | ⟨0, _⟩ => rfl
    | ⟨1, _⟩ => show e.val % 128 = e.val; omega

/-- The reference's result at node n, output feature o. -/
theorem result_apply (n : Fin 50000) (o : Fin 12) :
    val_main_v40 (F := Ideal) x0 x1 x2 x3 x4 x5 x6 (ix2 n o)
      = mlp (J := Fin 12) (fun l d e => x4 (ix3 l e d)) (fun l e => x5 (ix2 l e)) (fun d o => x6 (ix2 o d))
          (fun d => val_main_v6 (F := Ideal) x0 x1 x2 x3 (ix2 n d)) o := by
  rw [val_main_v40_apply]
  unfold mlp proj
  refine Finset.sum_congr rfl fun k _ => ?_
  have el : lidx_main_v40 (ix2 n o) k = ix2 n k := funext fun a => Fin.ext (by
    match a with
    | ⟨0, _⟩ => rfl
    | ⟨1, _⟩ => rfl)
  have er : ridx_main_v40 (ix2 n o) k = ix2 o k := funext fun a => Fin.ext (by
    match a with
    | ⟨0, _⟩ => rfl
    | ⟨1, _⟩ => rfl)
  rw [el, er, layer2_apply]
  refine congrArg (· * x6 (ix2 o k)) (congrFun (dense_congr (fun _ _ => rfl) (fun _ => rfl) fun d => ?_) k)
  rw [layer1_apply]
  exact congrFun (dense_congr (fun _ _ => rfl) (fun _ => rfl) fun d => layer0_apply x0 x1 x2 x3 x4 x5 n d) d

end Cert.ReferenceIdeal.RefValue

end
-- ==== Proof.Bridge.lean ====
/-
  The two programs' results are one function of the arguments.

  Both results at (node n, output feature o) are the node network of Spec with the same parameters (KernelValue, RefValue),
  applied to row n of the node array before the network. That array is, in both programs, the same scatter-add of the message
  array by the same destination indices into zeros — the same operations on both sides, so it is enough that the two message
  arrays agree: at edge i, lane j, the kernel's (∑ₖ rbf i k · wᵀ k j) · m i j against the reference's (∑ₖ rbf i k · w j k) · m i j,
  and the transposed weight at (k, j) is the weight at (j, k). No sum is re-associated, nothing is distributed or cancelled:
  no finiteness of the inputs is used.
-/
import proofs.«181056_j21191368639071_1_alg».proof.Proof.KernelValue
import proofs.«181056_j21191368639071_1_alg».proof.Proof.RefValue

set_option maxRecDepth 16384

noncomputable section

namespace Cert.Bridge

open Idealize.ShloMosaic Idealize.ShloMosaic.TcCoe Idealize.SL.Sem ValueIdx Cert.Spec
open Cert.KernelIdeal.Arrays Cert.KernelIdeal.RunValue Cert.ReferenceIdeal.ReadP

/-- The two message arrays are one array. -/
theorem msg_eq (x0 : (⟨Cert.ReferenceIdeal.S500000x128, .f32⟩ : BufTy).Contents (Elt Ideal))
    (x1 : (⟨Cert.ReferenceIdeal.S500000x16, .f32⟩ : BufTy).Contents (Elt Ideal))
    (x3 : (⟨Cert.ReferenceIdeal.S128x16, .f32⟩ : BufTy).Contents (Elt Ideal)) :
    edgeOut x1 x0 (wT x3) = val_main_v1 (F := Ideal) x0 x1 x3 := by
  funext i
  obtain ⟨r, j, rfl⟩ : ∃ (r : Fin 500000) (j : Fin 128), i = ix2 r j := ⟨i 0, i 1, eq_ix2 i⟩
  rw [val_main_v1_apply, val_main_v0_apply]
  unfold edgeOut wT
  show (∑ k : Fin 16, x1 (ix2 r k) * transpose Cert.KernelIdeal.S16x128 [1, 0] x3 _ (ix2 k j)) * x0 (ix2 r j)
    = (∑ k : Fin 16, x1 (lidx_main_v0 (ix2 r j) k) * x3 (ridx_main_v0 (ix2 r j) k)) * x0 (ix2 r j)
  refine congrArg (· * x0 (ix2 r j)) (Finset.sum_congr rfl fun k _ => ?_)
  rw [transpose_apply [1, 0] x3 _ (ix2 k j) (ix2 j k) (fun b => by
    match b with
    | ⟨0, _⟩ => rfl
    | ⟨1, _⟩ => rfl)]
  exact congrArg₂ (· * ·)
    (congrArg x1 (funext fun a => Fin.ext (by match a with | ⟨0, _⟩ => rfl | ⟨1, _⟩ => rfl)))
    (congrArg x3 (funext fun a => Fin.ext (by match a with | ⟨0, _⟩ => rfl | ⟨1, _⟩ => rfl)))

/-- So the two node arrays before the network are one array: the same scatter-add of the same messages. -/
theorem atom_eq (x0 : (⟨Cert.ReferenceIdeal.S500000x128, .f32⟩ : BufTy).Contents (Elt Ideal))
    (x1 : (⟨Cert.ReferenceIdeal.S500000x16, .f32⟩ : BufTy).Contents (Elt Ideal))
    (x2 : (⟨Cert.ReferenceIdeal.S2x500000, .i32⟩ : BufTy).Contents (Elt Ideal))
    (x3 : (⟨Cert.ReferenceIdeal.S128x16, .f32⟩ : BufTy).Contents (Elt Ideal)) :
    atomOf x2 (edgeOut x1 x0 (wT x3)) = val_main_v6 (F := Ideal) x0 x1 x2 x3 := by
  rw [msg_eq]
  rfl

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel program's result is the reference's composed result term of the same arguments. -/
theorem result_eq :
    Cert.KernelIdeal.Gen.W5 m ρ c (Proc.devRef .tc Cert.KernelIdeal.main_v14)
      = val_main_v40 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  funext i
  obtain ⟨n, o, rfl⟩ : ∃ (n : Fin 50000) (o : Fin 12), i = ix2 n o := ⟨i 0, i 1, eq_ix2 i⟩
  refine (Cert.KernelIdeal.RunValue.result_apply m ρ c n o).trans ?_
  refine Eq.trans ?_ (Cert.ReferenceIdeal.RefValue.result_apply _ _ _ _ _ _ _ n o).symm
  exact mlp_congr (fun _ _ _ => rfl) (fun _ _ => rfl) (fun _ => rfl) (fun d => congrFun (atom_eq _ _ _ _) (ix2 n d))

end Cert.Bridge

end
-- ==== Proof.lean ====
/-
  The claim: a message-passing layer on a graph — per edge a message (rbf · lin_rbf_wᵀ) ⊙ m_ji, the messages summed into their
  destination nodes, then per node three dense layers with the shifted softplus and a 12-feature projection — computed by
  two Pallas kernels around a host scatter-add, against the plain jnp reference, over the extended reals.

  The three frames: the two kernel programs' are the generated frame certificates; the reference's is its run with the result
  dropped. The ideal pass rewrote nothing, so `preserves` is trivial. The algebraic conjunct: the kernel program's run ends with
  its result buffer at the contents the last host stretch leaves (KernelRun), the reference's with its composed result term
  (RefRunPatched), and the two are one function of the arguments, entry by entry (Bridge): both are the node network of Spec
  on the same scatter-added node array, the kernels' transposed, padded and row-blocked layouts being re-indexings.
  The precondition (finite inputs) is never opened.
-/
import proofs.«181056_j21191368639071_1_alg».proof.Defs
import proofs.«181056_j21191368639071_1_alg».proof.Proof.Gen.Kernel
import proofs.«181056_j21191368639071_1_alg».proof.Proof.Gen.Kernel.Frame
import proofs.«181056_j21191368639071_1_alg».proof.Proof.Gen.KernelIdeal
import proofs.«181056_j21191368639071_1_alg».proof.Proof.Gen.KernelIdeal.Frame
import proofs.«181056_j21191368639071_1_alg».proof.Proof.Gen.ReferenceIdeal
import proofs.«181056_j21191368639071_1_alg».proof.Proof.Gen.Pre_finite_inputs
import proofs.«181056_j21191368639071_1_alg».proof.Proof.RefRunPatched
import proofs.«181056_j21191368639071_1_alg».proof.Proof.RefReadPatched
import proofs.«181056_j21191368639071_1_alg».proof.Proof.KernelRun
import proofs.«181056_j21191368639071_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end, from memories agreeing on the arguments, with the same result array. -/
theorem algebraic : Cert.algebraic_KernelIdeal_ReferenceIdeal := by
  intro m ρ m' ρ' _ hagree
  refine ⟨fun c => Cert.KernelIdeal.Gen.W5 m ρ c (Proc.devRef .tc Cert.KernelIdeal.main_v14),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v40_eq, (hagree c).1, (hagree c).2.1, (hagree c).2.2.1, (hagree c).2.2.2.1,
    (hagree c).2.2.2.2.1, (hagree c).2.2.2.2.2.1, (hagree c).2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
